-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S800000 : Shape := ⟨1, ![800000]⟩
abbrev S160000 : Shape := ⟨1, ![160000]⟩
abbrev S256x256 : Shape := ⟨2, ![256, 256]⟩
abbrev S256x64 : Shape := ⟨2, ![256, 64]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg8 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S500000x256 .f32) (main_arg1 : IVec S800000 32) (main_arg2 : IVec S800000 32) (main_arg3 : IVec S160000 32) (main_arg4 : IVec S160000 32) (main_arg5 : FVec F S256x256 .f32) (main_arg6 : FVec F S256x256 .f32) (main_arg7 : FVec F S256x64 .f32) (main_arg8 : FVec F S256x64 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x64 .f32 := Host.absf main_arg7
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg8 main_v13 main_v16
-- ==== Kernel.lean ====
abbrev S500000x256 : Shape := ⟨2, ![500000, 256]⟩
abbrev S800000 : Shape := ⟨1, ![800000]⟩
abbrev S160000 : Shape := ⟨1, ![160000]⟩
abbrev S256x256 : Shape := ⟨2, ![256, 256]⟩
abbrev S256x64 : Shape := ⟨2, ![256, 64]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000 : Shape := ⟨1, ![50000]⟩
abbrev S50000x1 : Shape := ⟨2, ![50000, 1]⟩
abbrev S2000x256 : Shape := ⟨2, ![2000, 256]⟩
abbrev S160000x1 : Shape := ⟨2, ![160000, 1]⟩
abbrev S160000x256 : Shape := ⟨2, ![160000, 256]⟩
abbrev S10000x256 : Shape := ⟨2, ![10000, 256]⟩
abbrev S10000 : Shape := ⟨1, ![10000]⟩
abbrev S10000x1 : Shape := ⟨2, ![10000, 1]⟩
abbrev S10000x64 : Shape := ⟨2, ![10000, 64]⟩
abbrev S2000x64 : Shape := ⟨2, ![2000, 64]⟩

abbrev nBuf : Space → Nat
  | .hbm => 63
  | .vmem => 16
  | .smem => 0
  | _ => 0

abbrev bufTy : (tb : Table) → Fin (tcTables nBuf tb) → BufTy
  | .hbm, ⟨0, _⟩ => ⟨S500000x256, .f32⟩
  | .hbm, ⟨1, _⟩ => ⟨S800000, .i32⟩
  | .hbm, ⟨2, _⟩ => ⟨S800000, .i32⟩
  | .hbm, ⟨3, _⟩ => ⟨S160000, .i32⟩
  | .hbm, ⟨4, _⟩ => ⟨S160000, .i32⟩
  | .hbm, ⟨5, _⟩ => ⟨S256x256, .f32⟩
  | .hbm, ⟨6, _⟩ => ⟨S256x256, .f32⟩
  | .hbm, ⟨7, _⟩ => ⟨S256x64, .f32⟩
  | .hbm, ⟨8, _⟩ => ⟨S256x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x256, .f32⟩
  | .hbm, ⟨45, _⟩ => ⟨S_, .f32⟩
  | .hbm, ⟨46, _⟩ => ⟨S10000x256, .f32⟩
  | .hbm, ⟨47, _⟩ => ⟨S160000x1, .i32⟩
  | .hbm, ⟨48, _⟩ => ⟨S10000x256, .f32⟩
  | .hbm, ⟨49, _⟩ => ⟨S_, .f32⟩
  | .hbm, ⟨50, _⟩ => ⟨S160000, .f32⟩
  | .hbm, ⟨51, _⟩ => ⟨S_, .f32⟩
  | .hbm, ⟨52, _⟩ => ⟨S10000, .f32⟩
  | .hbm, ⟨53, _⟩ => ⟨S160000x1, .i32⟩
  | .hbm, ⟨54, _⟩ => ⟨S10000, .f32⟩
  | .hbm, ⟨55, _⟩ => ⟨S_, .f32⟩
  | .hbm, ⟨56, _⟩ => ⟨S10000, .f32⟩
  | .hbm, ⟨57, _⟩ => ⟨S10000, .f32⟩
  | .hbm, ⟨58, _⟩ => ⟨S10000x1, .f32⟩
  | .hbm, ⟨59, _⟩ => ⟨S10000x256, .f32⟩
  | .hbm, ⟨60, _⟩ => ⟨S10000x256, .f32⟩
  | .hbm, ⟨61, _⟩ => ⟨S10000x256, .f32⟩
  | .hbm, ⟨62, _⟩ => ⟨S10000x64, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x64, .f32⟩
  | .local _ .vmem, ⟨13, _⟩ => ⟨S256x64, .f32⟩
  | .local _ .vmem, ⟨14, _⟩ => ⟨S2000x64, .f32⟩
  | .local _ .vmem, ⟨15, _⟩ => ⟨S2000x64, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S500000x256_S50000x256_0_0 : S500000x256.Slices ![0, 0] S50000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  slices_S50000x256_S10000x256_0_0 : S50000x256.Slices ![0, 0] S10000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  gather_S500000x256_S800000x1_S800000x256_1_0_n_n_0_1_1256_wf : GatherDims.WF S500000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S160000x1_S160000x256_1_0_n_n_0_1_1256_wf : GatherDims.WF S50000x256 S160000x1 S160000x256 [1] [0] [] [0] [] 1 ![1, 256]
  scatter_S10000x256_S160000x1_S160000x256_1_0_0_1_wf : ScatterDims.WF S10000x256 S160000x1 S160000x256 [1] [0] [0] 1
  scatter_S10000_S160000x1_S160000_n_0_0_1_wf : ScatterDims.WF S10000 S160000x1 S160000 [] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S10000x64.size a
  hwx1_4 : ∀ i : grid1.Coords, EltTy.bits .f32 = 32 ∨ (Rect.block (s := S10000x64) S2000x64.size (cc1_transform_4 i) (hinb1_4 i)).WholeWords (EltTy.packing .f32)

variable [Facts₀]

def gather_S500000x256_S800000x1_S800000x256_1_0_n_n_0_1_1256 : GatherDims S500000x256 S800000x1 S800000x256 where
  offsetDims := [1]
  collapsedSliceDims := [0]
  operandBatchingDims := []
  startIndicesBatchingDims := []
  startIndexMap := [0]
  indexVectorDim := 1
  sliceSizes := ![1, 256]
  wf := gather_S500000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S160000x1_S160000x256_1_0_n_n_0_1_1256 : GatherDims S50000x256 S160000x1 S160000x256 where
  offsetDims := [1]
  collapsedSliceDims := [0]
  operandBatchingDims := []
  startIndicesBatchingDims := []
  startIndexMap := [0]
  indexVectorDim := 1
  sliceSizes := ![1, 256]
  wf := gather_S50000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v19) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S500000x256 : Shape := ⟨2, ![500000, 256]⟩
abbrev S800000 : Shape := ⟨1, ![800000]⟩
abbrev S160000 : Shape := ⟨1, ![160000]⟩
abbrev S256x256 : Shape := ⟨2, ![256, 256]⟩
abbrev S256x64 : Shape := ⟨2, ![256, 64]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000 : Shape := ⟨1, ![50000]⟩
abbrev S50000x1 : Shape := ⟨2, ![50000, 1]⟩
abbrev S160000x1 : Shape := ⟨2, ![160000, 1]⟩
abbrev S160000x256 : Shape := ⟨2, ![160000, 256]⟩
abbrev S10000x256 : Shape := ⟨2, ![10000, 256]⟩
abbrev S10000 : Shape := ⟨1, ![10000]⟩
abbrev S10000x1 : Shape := ⟨2, ![10000, 1]⟩
abbrev S10000x64 : Shape := ⟨2, ![10000, 64]⟩

abbrev nBuf : Space → Nat
  | .hbm => 70
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S800000, .i32⟩
  | .hbm, ⟨2, _⟩ => ⟨S800000, .i32⟩
  | .hbm, ⟨3, _⟩ => ⟨S160000, .i32⟩
  | .hbm, ⟨4, _⟩ => ⟨S160000, .i32⟩
  | .hbm, ⟨5, _⟩ => ⟨S256x256, .f32⟩
  | .hbm, ⟨6, _⟩ => ⟨S256x256, .f32⟩
  | .hbm, ⟨7, _⟩ => ⟨S256x64, .f32⟩
  | .hbm, ⟨8, _⟩ => ⟨S256x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S_, .i32⟩
  | .hbm, ⟨42, _⟩ => ⟨S160000, .i32⟩
  | .hbm, ⟨43, _⟩ => ⟨S160000, .i1⟩
  | .hbm, ⟨44, _⟩ => ⟨S_, .i32⟩
  | .hbm, ⟨45, _⟩ => ⟨S160000, .i32⟩
  | .hbm, ⟨46, _⟩ => ⟨S160000, .i32⟩
  | .hbm, ⟨47, _⟩ => ⟨S160000, .i32⟩
  | .hbm, ⟨48, _⟩ => ⟨S160000x1, .i32⟩
  | .hbm, ⟨49, _⟩ => ⟨S160000x256, .f32⟩
  | .hbm, ⟨50, _⟩ => ⟨S_, .f32⟩
  | .hbm, ⟨51, _⟩ => ⟨S10000x256, .f32⟩
  | .hbm, ⟨52, _⟩ => ⟨S160000x1, .i32⟩
  | .hbm, ⟨53, _⟩ => ⟨S10000x256, .f32⟩
  | .hbm, ⟨54, _⟩ => ⟨S_, .f32⟩
  | .hbm, ⟨55, _⟩ => ⟨S160000, .f32⟩
  | .hbm, ⟨56, _⟩ => ⟨S_, .f32⟩
  | .hbm, ⟨57, _⟩ => ⟨S10000, .f32⟩
  | .hbm, ⟨58, _⟩ => ⟨S160000x1, .i32⟩
  | .hbm, ⟨59, _⟩ => ⟨S10000, .f32⟩
  | .hbm, ⟨60, _⟩ => ⟨S_, .f32⟩
  | .hbm, ⟨61, _⟩ => ⟨S10000, .f32⟩
  | .hbm, ⟨62, _⟩ => ⟨S10000, .f32⟩
  | .hbm, ⟨63, _⟩ => ⟨S10000x1, .f32⟩
  | .hbm, ⟨64, _⟩ => ⟨S10000x256, .f32⟩
  | .hbm, ⟨65, _⟩ => ⟨S10000x256, .f32⟩
  | .hbm, ⟨66, _⟩ => ⟨S10000x256, .f32⟩
  | .hbm, ⟨67, _⟩ => ⟨S10000x64, .f32⟩
  | .hbm, ⟨68, _⟩ => ⟨S10000x64, .f32⟩
  | .hbm, ⟨69, _⟩ => ⟨S10000x64, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S500000x256_S50000x256_0_0 : S500000x256.Slices ![0, 0] S50000x256
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  slices_S50000x256_S10000x256_0_0 : S50000x256.Slices ![0, 0] S10000x256
  gather_S500000x256_S800000x1_S800000x256_1_0_n_n_0_1_1256_wf : GatherDims.WF S500000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S160000x1_S160000x256_1_0_n_n_0_1_1256_wf : GatherDims.WF S50000x256 S160000x1 S160000x256 [1] [0] [] [0] [] 1 ![1, 256]
  scatter_S10000x256_S160000x1_S160000x256_1_0_0_1_wf : ScatterDims.WF S10000x256 S160000x1 S160000x256 [1] [0] [0] 1
  scatter_S10000_S160000x1_S160000_n_0_0_1_wf : ScatterDims.WF S10000 S160000x1 S160000 [] [0] [0] 1
  dot_S10000x256_S256x64_S10000x64_1_0_0_1_n_n_wf : DotDims.WF S10000x256 S256x64 S10000x64 [1] [0] [0] [1] [] []

variable [Facts₀]

def gather_S500000x256_S800000x1_S800000x256_1_0_n_n_0_1_1256 : GatherDims S500000x256 S800000x1 S800000x256 where
  offsetDims := [1]
  collapsedSliceDims := [0]
  operandBatchingDims := []
  startIndicesBatchingDims := []
  startIndexMap := [0]
  indexVectorDim := 1
  sliceSizes := ![1, 256]
  wf := gather_S500000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S160000x1_S160000x256_1_0_n_n_0_1_1256 : GatherDims S50000x256 S160000x1 S160000x256 where
  offsetDims := [1]
  collapsedSliceDims := [0]
  operandBatchingDims := []
  startIndicesBatchingDims := []
  startIndexMap := [0]
  indexVectorDim := 1
  sliceSizes := ![1, 256]
  wf := gather_S50000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.LayerSpec.lean ====
/-
  The mathematics of one layer of the two-layer neighbourhood-averaging network, over the extended reals.

  A layer takes the destination nodes' own features `X` and their averaged neighbour features `Y`
  (both [rows, 256]) and two weight matrices `W`, `W'` ([256, cols]) and returns
  `X · W + Y · W'`, entry by entry; the hidden layer then takes the maximum with zero.
  Entry `(r, c)` of a product is the sum over the 256 shared coordinates `k` of `X (r, k) * W (k, c)`.
  Both programs are compared against these functions: how a program tiles the rows, or in which order it
  adds the 256 products, is invisible here because the sum is one `Finset.sum`.
-/
import Idealize.ShloMosaic.PureOps.Ideal.Laws
import Idealize.ShloMosaic.Lib.ValueIdx

noncomputable section

namespace Cert.Sage

open Idealize.ShloMosaic Idealize.ShloMosaic.ValueIdx

/-- Entry `(r, c)` of the matrix product `X · W` over the extended reals: row `r` of `X` against column `c` of `W`. -/
def prodAt {M K N : Nat} (X : FVec Ideal ⟨2, ![M, K]⟩ .f32) (W : FVec Ideal ⟨2, ![K, N]⟩ .f32) (r : Fin M) (c : Fin N) : EReal :=
  ∑ k : Fin K, X (ix2 r k) * W (ix2 k c)

/-- The hidden layer on 50000 destination nodes: `max (X · W + Y · W') 0`, entry by entry. The zero is kept as the
    float word both programs spell. -/
def hidden (X Y : FVec Ideal ⟨2, ![50000, 256]⟩ .f32) (W W' : FVec Ideal ⟨2, ![256, 256]⟩ .f32) :
    FVec Ideal ⟨2, ![50000, 256]⟩ .f32 :=
  fun i => max (prodAt X W (i 0) (i 1) + prodAt Y W' (i 0) (i 1)) (Ideal.ofBits .f32 0x00000000#32)

/-- The output layer on 10000 destination nodes: `X · W + Y · W'`, entry by entry. -/
def output (X Y : FVec Ideal ⟨2, ![10000, 256]⟩ .f32) (W W' : FVec Ideal ⟨2, ![256, 64]⟩ .f32) :
    FVec Ideal ⟨2, ![10000, 64]⟩ .f32 :=
  fun i => prodAt X W (i 0) (i 1) + prodAt Y W' (i 0) (i 1)

/-- `hidden` at the index with coordinates `(p, q)`. -/
theorem hidden_ix2 (X Y : FVec Ideal ⟨2, ![50000, 256]⟩ .f32) (W W' : FVec Ideal ⟨2, ![256, 256]⟩ .f32) (p : Fin 50000) (q : Fin 256) :
    hidden X Y W W' (ix2 p q) = max (prodAt X W p q + prodAt Y W' p q) (Ideal.ofBits .f32 0x00000000#32) := rfl

/-- `output` at the index with coordinates `(p, q)`. -/
theorem output_ix2 (X Y : FVec Ideal ⟨2, ![10000, 256]⟩ .f32) (W W' : FVec Ideal ⟨2, ![256, 64]⟩ .f32) (p : Fin 10000) (q : Fin 64) :
    output X Y W W' (ix2 p q) = prodAt X W p q + prodAt Y W' p q := rfl

end Cert.Sage

end
-- ==== Proof.RefLayer.lean ====
/-
  The reference program's two layers are the specification's, and its result is one function of the nine arguments.

  The reference multiplies with the host's `dot_general`, which over the extended reals is the plain sum over the
  shared coordinate: so `X · W + Y · W'` followed by the maximum with zero is `hidden`, and without the maximum
  `output`. Everything else in the program prepares a layer's inputs: the destination nodes' own rows are the first rows of
  the layer's input, and the neighbour mean is a gather of source rows along the edges, a scatter-add onto the
  destinations, and a division by the clamped in-degree. Those preparations are kept here as named functions of their
  inputs and never opened: both programs apply the same ones.
-/
import proofs.«175293_j75282186764725_1_alg».proof.Proof.Gen.ReferenceIdeal.Read
import proofs.«175293_j75282186764725_1_alg».proof.Proof.LayerSpec

noncomputable section

namespace Cert.Sage

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-! ## The host's matrix products, entry by entry -/

/-- The host's product of a [50000, 256] matrix with a [256, 256] one: entry `(p, q)` is row `p` against column `q`. -/
theorem dotHidden_apply (X : FVec Ideal S50000x256 .f32) (W : FVec Ideal S256x256 .f32) (p : Fin 50000) (q : Fin 256) :
    Host.dotGeneral dot_S50000x256_S256x256_S50000x256_1_0_0_1_n_n none X W (ix2 p q) = prodAt X W p q := by
  unfold prodAt
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 p q) ((contrEquiv1 dot_S50000x256_S256x256_S50000x256_1_0_0_1_n_n 256 rfl rfl).symm k) = ix2 p k := funext fun a => Fin.ext (by
    match a with
    | ⟨0, _⟩ => exact lhs_main_v20_0 _ _
    | ⟨1, _⟩ => exact (lhs_main_v20_1 _ _).trans hk)
  have er : dot_S50000x256_S256x256_S50000x256_1_0_0_1_n_n.rhsIdx (ix2 p q) ((contrEquiv1 dot_S50000x256_S256x256_S50000x256_1_0_0_1_n_n 256 rfl rfl).symm k) = ix2 k q := funext fun a => Fin.ext (by
    match a with
    | ⟨0, _⟩ => exact (rhs_main_v20_0 _ _).trans hk
    | ⟨1, _⟩ => exact rhs_main_v20_1 _ _)
  rw [el, er]

/-- The host's product of a [10000, 256] matrix with a [256, 64] one: entry `(p, q)` is row `p` against column `q`. -/
theorem dotOutput_apply (X : FVec Ideal S10000x256 .f32) (W : FVec Ideal S256x64 .f32) (p : Fin 10000) (q : Fin 64) :
    Host.dotGeneral dot_S10000x256_S256x64_S10000x64_1_0_0_1_n_n none X W (ix2 p q) = prodAt X W p q := by
  unfold prodAt
  simp only [Host.dotGeneral]
  rw [Ideal.dotGeneral_apply, ← Equiv.sum_comp (contrEquiv1 dot_S10000x256_S256x64_S10000x64_1_0_0_1_n_n 256 rfl rfl).symm]
  refine Finset.sum_congr rfl fun k _ => ?_
  have hk := contrEquiv1_symm_val dot_S10000x256_S256x64_S10000x64_1_0_0_1_n_n 256 rfl rfl k
  have el : dot_S10000x256_S256x64_S10000x64_1_0_0_1_n_n.lhsIdx (ix2 p q) ((contrEquiv1 dot_S10000x256_S256x64_S10000x64_1_0_0_1_n_n 256 rfl rfl).symm k) = ix2 p k := funext fun a => Fin.ext (by
    match a with
    | ⟨0, _⟩ => exact lhs_main_v44_0 _ _
    | ⟨1, _⟩ => exact (lhs_main_v44_1 _ _).trans hk)
  have er : dot_S10000x256_S256x64_S10000x64_1_0_0_1_n_n.rhsIdx (ix2 p q) ((contrEquiv1 dot_S10000x256_S256x64_S10000x64_1_0_0_1_n_n 256 rfl rfl).symm k) = ix2 k q := funext fun a => Fin.ext (by
    match a with
    | ⟨0, _⟩ => exact (rhs_main_v44_0 _ _).trans hk
    | ⟨1, _⟩ => exact rhs_main_v44_1 _ _)
  rw [el, er]

/-! ## The two layers -/

/-- The broadcast of the scalar zero, read at any index, is that zero. -/
theorem zeroSplat_apply (i : S50000x256.Idx) :
    broadcastInDim S50000x256 ![] bcast_S_S50000x256 (constant (F := Ideal) S_ .f32 0x00000000#32) i = Ideal.ofBits .f32 0x00000000#32 :=
  broadcastInDim_apply _ bcast_S_S50000x256 (constant (F := Ideal) S_ .f32 0x00000000#32) i (fun a => a.elim0) (fun a => a.elim0)

/-- The reference's hidden layer — two host products added, then the maximum with a broadcast zero — is `hidden`. -/
theorem hidden_eq (X Y : FVec Ideal S50000x256 .f32) (W W' : FVec Ideal S256x256 .f32) :
    maximumf (addf (Host.dotGeneral dot_S50000x256_S256x256_S50000x256_1_0_0_1_n_n none X W) (Host.dotGeneral dot_S50000x256_S256x256_S50000x256_1_0_0_1_n_n none Y W'))
      (broadcastInDim S50000x256 ![] bcast_S_S50000x256 (constant (F := Ideal) S_ .f32 0x00000000#32)) = hidden X Y W W' := by
  funext i
  obtain ⟨p, q, rfl⟩ : ∃ (p : Fin 50000) (q : Fin 256), i = ix2 p q := ⟨i 0, i 1, eq_ix2 i⟩
  rw [hidden_ix2]
  show max (Host.dotGeneral dot_S50000x256_S256x256_S50000x256_1_0_0_1_n_n none X W (ix2 p q) + Host.dotGeneral dot_S50000x256_S256x256_S50000x256_1_0_0_1_n_n none Y W' (ix2 p q))
      (broadcastInDim S50000x256 ![] bcast_S_S50000x256 (constant (F := Ideal) S_ .f32 0x00000000#32) (ix2 p q)) = _
  rw [dotHidden_apply, dotHidden_apply]
  exact congrArg (max _) (zeroSplat_apply (ix2 p q))

/-- The reference's output layer — two host products added — is `output`. -/
theorem output_eq (X Y : FVec Ideal S10000x256 .f32) (W W' : FVec Ideal S256x64 .f32) :
    addf (Host.dotGeneral dot_S10000x256_S256x64_S10000x64_1_0_0_1_n_n none X W) (Host.dotGeneral dot_S10000x256_S256x64_S10000x64_1_0_0_1_n_n none Y W') = output X Y W W' := by
  funext i
  obtain ⟨p, q, rfl⟩ : ∃ (p : Fin 10000) (q : Fin 64), i = ix2 p q := ⟨i 0, i 1, eq_ix2 i⟩
  rw [output_ix2]
  show Host.dotGeneral dot_S10000x256_S256x64_S10000x64_1_0_0_1_n_n none X W (ix2 p q) + Host.dotGeneral dot_S10000x256_S256x64_S10000x64_1_0_0_1_n_n none Y W' (ix2 p q) = _
  rw [dotOutput_apply, dotOutput_apply]

/-! ## What feeds the layers -/

/-- The hidden layer's own-feature input: the first 50000 rows of the feature matrix. -/
abbrev ownRows0 (x0 : (⟨S500000x256, .f32⟩ : BufTy).Contents (Elt F)) : (⟨S50000x256, .f32⟩ : BufTy).Contents (Elt F) := val_main_v19 (F := F) x0

/-- The hidden layer's neighbour input: source rows gathered along the first edge list, added onto their destinations,
    each destination's sum divided by its in-degree clamped below at one. -/
abbrev nbrMean0 (x0 : (⟨S500000x256, .f32⟩ : BufTy).Contents (Elt F)) (x1 x2 : (⟨S800000, .i32⟩ : BufTy).Contents (Elt F)) : (⟨S50000x256, .f32⟩ : BufTy).Contents (Elt F) :=
  val_main_v18 (F := F) x0 x1 x2

/-- The output layer's own-feature input: the first 10000 rows of the hidden activations. -/
def ownRows1 (H : (⟨S50000x256, .f32⟩ : BufTy).Contents (Elt F)) : (⟨S10000x256, .f32⟩ : BufTy).Contents (Elt F) :=
  extractStridedSlice S10000x256 ![0, 0] H slices_S50000x256_S10000x256_0_0

/-- The output layer's neighbour input: hidden rows gathered along the second edge list (a negative source index wraps
    by 50000 first), added onto their destinations, each sum divided by the in-degree clamped below at one. -/
def nbrMean1 (H : (⟨S50000x256, .f32⟩ : BufTy).Contents (Elt F)) (x3 x4 : (⟨S160000, .i32⟩ : BufTy).Contents (Elt F)) : (⟨S10000x256, .f32⟩ : BufTy).Contents (Elt F) :=
  Host.divf (Host.scatterAdd scatter_S10000x256_S160000x1_S160000x256_1_0_0_1 (broadcastInDim S10000x256 ![] bcast_S_S10000x256 (constant S_ .f32 0x00000000#32)) (broadcastInDim S160000x1 ![0] bcast_S160000_S160000x1_0 x4) (Host.gather gather_S50000x256_S160000x1_S160000x256_1_0_n_n_0_1_1256 H (broadcastInDim S160000x1 ![0] bcast_S160000_S160000x1_0 (select (cmpi .slt x3 (broadcastInDim S160000 ![] bcast_S_S160000 (constantI S_ 32 0#32))) (addi x3 (broadcastInDim S160000 ![] bcast_S_S160000 (constantI S_ 32 50000#32))) x3)))) (broadcastInDim S10000x256 ![0, 1] bcast_S10000x1_S10000x256_0_1 (broadcastInDim S10000x1 ![0] bcast_S10000_S10000x1_0 (maximumf (Host.scatterAdd scatter_S10000_S160000x1_S160000_n_0_0_1 (broadcastInDim S10000 ![] bcast_S_S10000 (constant S_ .f32 0x00000000#32)) (broadcastInDim S160000x1 ![0] bcast_S160000_S160000x1_0 x4) (broadcastInDim S160000 ![] bcast_S_S160000 (constant S_ .f32 0x3F800000#32))) (broadcastInDim S10000 ![] bcast_S_S10000 (constant S_ .f32 0x3F800000#32)))))

/-! ## The whole network -/

/-- The hidden activations as a function of the arguments. -/
def hiddenOf (x0 : (⟨S500000x256, .f32⟩ : BufTy).Contents (Elt Ideal)) (x1 x2 : (⟨S800000, .i32⟩ : BufTy).Contents (Elt Ideal)) (x5 x6 : (⟨S256x256, .f32⟩ : BufTy).Contents (Elt Ideal)) :
    (⟨S50000x256, .f32⟩ : BufTy).Contents (Elt Ideal) :=
  hidden (ownRows0 x0) (nbrMean0 x0 x1 x2) x5 x6

/-- The network's result as a function of the nine arguments: the output layer on the hidden activations. -/
def net (x0 : (⟨S500000x256, .f32⟩ : BufTy).Contents (Elt Ideal)) (x1 x2 : (⟨S800000, .i32⟩ : BufTy).Contents (Elt Ideal)) (x3 x4 : (⟨S160000, .i32⟩ : BufTy).Contents (Elt Ideal))
    (x5 x6 : (⟨S256x256, .f32⟩ : BufTy).Contents (Elt Ideal)) (x7 x8 : (⟨S256x64, .f32⟩ : BufTy).Contents (Elt Ideal)) : (⟨S10000x64, .f32⟩ : BufTy).Contents (Elt Ideal) :=
  output (ownRows1 (hiddenOf x0 x1 x2 x5 x6)) (nbrMean1 (hiddenOf x0 x1 x2 x5 x6) x3 x4) x7 x8

set_option maxRecDepth 8192 in
/-- The reference run's result term is `net` of the launch contents of the arguments: its two layers are the
    specification's (`hidden_eq`, `output_eq`), the rest is the same preparations applied in the same places. -/
theorem ref_result (m : (ℓ : Loc nD τ sig) → Buf (Elt Ideal) ℓ) (c : Dev nD) :
    Cert.ReferenceIdeal.Value.res_main_v46 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold net hiddenOf
  rw [← output_eq, ← hidden_eq]
  rfl

end Cert.Sage

end
-- ==== Proof.KernelRun.lean ====
/-
  The idealized kernel's run with the FINAL CONTENTS OF EVERY BUFFER kept.

  The program is four stretches in a row: host operations, the first layer's pipelined region, host operations,
  the second layer's region. The contents of every buffer at each boundary are a fold through those stretches:
  a host stretch applies its operations, a region leaves each of its arrays at what its write-backs leave and every
  other buffer alone. Every weakly fair execution terminates with every unscoped buffer at the last fold. From that
  one statement follow both that the arguments end as launched and what the result array holds, namely the second
  region's output array after its last write-back.
-/
import proofs.«175293_j75282186764725_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents: the four segments chained from the launch memory, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result array and at the nine arguments: the result ends at the last fold's contents of
    its buffer, each argument as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_all m ρ)

end Cert.KernelIdeal.Run

end
-- ==== Proof.KernelBody.lean ====
/-
  What one grid point of each pipelined region computes, entry by entry, over the extended reals.

  A point loads a block of 2000 rows of each of the layer's two inputs and both weight matrices whole, rounds all four
  to bf16 (the identity on extended reals), multiplies on the matrix unit into a zero accumulator twice, adds the two
  products and, in the first region only, takes the maximum with zero. A matrix-unit product into a zero accumulator is
  the plain sum over the shared coordinate, so entry `(p, q)` of what the point stores is the layer's formula on the
  loaded blocks: row `p` of each input block against column `q` of its weight matrix.
-/
import proofs.«175293_j75282186764725_1_alg».proof.Proof.Gen.KernelIdeal.Skeleton
import proofs.«175293_j75282186764725_1_alg».proof.Proof.LayerSpec
import Idealize.ShloMosaic.Lib.Pipeline.Value
import Idealize.ShloMosaic.Lib.ValueIdx
import Idealize.ShloMosaic.PureOps.Ideal.Laws

noncomputable section

namespace Cert.Sage

open Cert.KernelIdeal Cert.KernelIdeal.Gen
open Idealize.ShloMosaic Idealize.ShloMosaic.TcCoe Idealize.SL.Sem Idealize.ShloMosaic.ValueIdx

/-! ## The matrix unit's operand indices: output entry `(r, c)` and shared coordinate `k` read `(r, k)` and `(k, c)` -/

theorem lhsK0_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsK0_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhsK0_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhsK0_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem lhsK1_0 (i : S2000x64.Idx) (q : dot_S2000x256_S256x64_S2000x64_1_0_0_1_n_n.contr.Idx) : (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhsK1_1 (i : S2000x64.Idx) (q : dot_S2000x256_S256x64_S2000x64_1_0_0_1_n_n.contr.Idx) : (dot_S2000x256_S256x64_S2000x64_1_0_0_1_n_n.lhsIdx i q 1).val = (q ⟨0, by decide⟩).val :=
  dot_S2000x256_S256x64_S2000x64_1_0_0_1_n_n.lhsIdx_val_of_single rfl i q
theorem rhsK1_0 (i : S2000x64.Idx) (q : dot_S2000x256_S256x64_S2000x64_1_0_0_1_n_n.contr.Idx) : (dot_S2000x256_S256x64_S2000x64_1_0_0_1_n_n.rhsIdx i q 0).val = (q ⟨0, by decide⟩).val :=
  dot_S2000x256_S256x64_S2000x64_1_0_0_1_n_n.rhsIdx_val_of_single rfl i q
theorem rhsK1_1 (i : S2000x64.Idx) (q : dot_S2000x256_S256x64_S2000x64_1_0_0_1_n_n.contr.Idx) : (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-! ## A product into a zero accumulator is the sum over the shared coordinate -/

/-- The first region's [2000, 256] × [256, 256] product into zeros, at entry `(p, q)`. -/
theorem matmulK0_apply (X : FVec Ideal S2000x256 .bf16) (W : FVec Ideal S256x256 .bf16) (p : Fin 2000) (q : Fin 256) :
    matmul dot_S2000x256_S256x256_S2000x256_1_0_0_1_n_n none X W (constant (F := Ideal) S2000x256 .f32 0x00000000#32) (ix2 p q)
      = ∑ k : Fin 256, X (ix2 p k) * W (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhsK0_0 _ _
    | ⟨1, _⟩ => exact (lhsK0_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhsK0_0 _ _).trans hk
    | ⟨1, _⟩ => exact rhsK0_1 _ _)
  rw [el, er]

/-- The second region's [2000, 256] × [256, 64] product into zeros, at entry `(p, q)`. -/
theorem matmulK1_apply (X : FVec Ideal S2000x256 .bf16) (W : FVec Ideal S256x64 .bf16) (p : Fin 2000) (q : Fin 64) :
    matmul dot_S2000x256_S256x64_S2000x64_1_0_0_1_n_n none X W (constant (F := Ideal) S2000x64 .f32 0x00000000#32) (ix2 p q)
      = ∑ k : Fin 256, X (ix2 p k) * W (ix2 k q) := by
  simp only [matmul]
  rw [Ideal.matmul_constant_zero_apply, ← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 p q) ((contrEquiv1 dot_S2000x256_S256x64_S2000x64_1_0_0_1_n_n 256 rfl rfl).symm k) = ix2 p k := funext fun a => Fin.ext (by
    match a with
    | ⟨0, _⟩ => exact lhsK1_0 _ _
    | ⟨1, _⟩ => exact (lhsK1_1 _ _).trans hk)
  have er : dot_S2000x256_S256x64_S2000x64_1_0_0_1_n_n.rhsIdx (ix2 p q) ((contrEquiv1 dot_S2000x256_S256x64_S2000x64_1_0_0_1_n_n 256 rfl rfl).symm k) = ix2 k q := funext fun a => Fin.ext (by
    match a with
    | ⟨0, _⟩ => exact (rhsK1_0 _ _).trans hk
    | ⟨1, _⟩ => exact rhsK1_1 _ _)
  rw [el, er]

/-! ## What a point stores -/

/-- The first region's stored block at entry `(p, q)`: the hidden layer's formula on the loaded blocks. -/
theorem payHidden_apply (x0 x1 : Vec Ideal S2000x256 .f32) (x2 x3 : Vec Ideal S256x256 .f32) (p : Fin 2000) (q : Fin 256) :
    k0_pay1 (F := Ideal) x0 x1 x2 x3 (ix2 p q)
      = max (prodAt x0 x2 p q + prodAt x1 x3 p q) (Ideal.ofBits .f32 0x00000000#32) := by
  unfold k0_pay1 prodAt
  rw [shapeCast_self, shapeCast_self]
  show max (matmul dot_S2000x256_S256x256_S2000x256_1_0_0_1_n_n none _ _ (constant (F := Ideal) S2000x256 .f32 0x00000000#32) (ix2 p q)
      + matmul dot_S2000x256_S256x256_S2000x256_1_0_0_1_n_n none _ _ (constant (F := Ideal) S2000x256 .f32 0x00000000#32) (ix2 p q)) _ = _
  rw [matmulK0_apply, matmulK0_apply]
  rfl

/-- The second region's stored block at entry `(p, q)`: the output layer's formula on the loaded blocks. -/
theorem payOutput_apply (x0 x1 : Vec Ideal S2000x256 .f32) (x2 x3 : Vec Ideal S256x64 .f32) (p : Fin 2000) (q : Fin 64) :
    k1_pay1 (F := Ideal) x0 x1 x2 x3 (ix2 p q) = prodAt x0 x2 p q + prodAt x1 x3 p q := by
  unfold k1_pay1 prodAt
  rw [shapeCast_self, shapeCast_self]
  show matmul dot_S2000x256_S256x64_S2000x64_1_0_0_1_n_n none _ _ (constant (F := Ideal) S2000x64 .f32 0x00000000#32) (ix2 p q)
      + matmul dot_S2000x256_S256x64_S2000x64_1_0_0_1_n_n none _ _ (constant (F := Ideal) S2000x64 .f32 0x00000000#32) (ix2 p q) = _
  rw [matmulK1_apply, matmulK1_apply]
  rfl

/-! ## A point's block against the layer on whole arrays -/

/-- One entry of a point's stored block against the layer on whole arrays: when the point's two input blocks are rows of
    `X` and `Y` — block row `p` being array row `r` — and its weight blocks are `W` and `W'` whole, entry `(p, q)` of the stored
    block is entry `(r, q)` of the layer. -/
theorem pointHidden (X Y : FVec Ideal S50000x256 .f32) (W W' : FVec Ideal S256x256 .f32)
    (x0 x1 : Vec Ideal S2000x256 .f32) (x2 x3 : Vec Ideal S256x256 .f32) (p : Fin 2000) (q : Fin 256) (r : Fin 50000)
    (h0 : ∀ k : Fin 256, x0 (ix2 p k) = X (ix2 r k)) (h1 : ∀ k : Fin 256, x1 (ix2 p k) = Y (ix2 r k))
    (h2 : x2 = W) (h3 : x3 = W') :
    k0_pay1 (F := Ideal) x0 x1 x2 x3 (ix2 p q) = hidden X Y W W' (ix2 r q) := by
  subst h2 h3
  rw [payHidden_apply, hidden_ix2]
  unfold prodAt
  simp only [h0, h1]

/-- One entry of a point's stored block against the layer on whole arrays: when the point's two input blocks are rows of
    `X` and `Y` — block row `p` being array row `r` — and its weight blocks are `W` and `W'` whole, entry `(p, q)` of the stored
    block is entry `(r, q)` of the layer. -/
theorem pointOutput (X Y : FVec Ideal S10000x256 .f32) (W W' : FVec Ideal S256x64 .f32)
    (x0 x1 : Vec Ideal S2000x256 .f32) (x2 x3 : Vec Ideal S256x64 .f32) (p : Fin 2000) (q : Fin 64) (r : Fin 10000)
    (h0 : ∀ k : Fin 256, x0 (ix2 p k) = X (ix2 r k)) (h1 : ∀ k : Fin 256, x1 (ix2 p k) = Y (ix2 r k))
    (h2 : x2 = W) (h3 : x3 = W') :
    k1_pay1 (F := Ideal) x0 x1 x2 x3 (ix2 p q) = output X Y W W' (ix2 r q) := by
  subst h2 h3
  rw [payOutput_apply, output_ix2]
  unfold prodAt
  simp only [h0, h1]

end Cert.Sage

end
-- ==== Proof.KernelBlocks.lean ====
/-
  From what each grid point writes back to the whole output array of each pipelined region.

  Both regions tile their output by blocks of 2000 rows, one block per grid point, every point writing its block back.
  Point `t` loads rows `2000 t … 2000 t + 1999` of the two input arrays and the two weight matrices whole, so by the
  per-point reading of the body the block it writes back is the same rows of the layer applied to the whole arrays.
  The blocks cover the array (row `r` is in block `r / 2000`), so after the region the output array IS the layer of
  the four arrays the region was entered with, whatever those are: everything here is stated at arbitrary entry contents `V`.
-/
import proofs.«175293_j75282186764725_1_alg».proof.Proof.Gen.KernelIdeal.Frame
import proofs.«175293_j75282186764725_1_alg».proof.Proof.KernelBody
import Idealize.ShloMosaic.Lib.Pipeline.Value

set_option maxRecDepth 16384

noncomputable section

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Region 0: the hidden layer, 25 points over 50000 rows -/

/-- The block indices of region 0's five windows at grid point `t`: the two inputs and the output are tiled by rows and move
    with `t`; the two weight matrices are one block each. Decided over the 25 points. -/
theorem idxHidden : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Input window 0's block at point `t` is rows `2000 t … 2000 t + 1999` of its array. -/
theorem blkHidden0 (c : Dev nD) (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c main_v19 : Vec Ideal S50000x256 .f32) i := by
  obtain ⟨a0, a1, -, -, -, -, -, -, -, -⟩ := idxHidden t
  show V c main_v19 (((cfg0.win 0).blk t).view.emb y) = V c main_v19 i
  refine congrArg (V c main_v19) (funext fun a => Fin.ext ?_)
  match a with
  | ⟨0, _⟩ => show win0_0.index t (0 : Fin 2) * 2000 + 1 * (y 0).val = (i 0).val; rw [a0, h0]; omega
  | ⟨1, _⟩ => show win0_0.index t (1 : Fin 2) * 256 + 1 * (y 1).val = (i 1).val; rw [a1, h1]; omega

/-- Input window 1's block at point `t` is the same rows of its own array. -/
theorem blkHidden1 (c : Dev nD) (t : Fin cfg0.N) (y : S2000x256.Idx) (i : S50000x256.Idx)
    (h0 : (i 0).val = t.val * 2000 + (y 0).val) (h1 : (i 1).val = (y 1).val) :
    (iblk0 V c 1 t : Vec Ideal S2000x256 .f32) y = (V c main_v18 : Vec Ideal S50000x256 .f32) i := by
  obtain ⟨-, -, a0, a1, -, -, -, -, -, -⟩ := idxHidden t
  show V c main_v18 (((cfg0.win 1).blk t).view.emb y) = V c main_v18 i
  refine congrArg (V c main_v18) (funext fun a => Fin.ext ?_)
  match a with
  | ⟨0, _⟩ => show win0_1.index t (0 : Fin 2) * 2000 + 1 * (y 0).val = (i 0).val; rw [a0, h0]; omega
  | ⟨1, _⟩ => show win0_1.index t (1 : Fin 2) * 256 + 1 * (y 1).val = (i 1).val; rw [a1, h1]; omega

/-- The first weight window's block at every point is its whole array. -/
theorem blkHidden2 (c : Dev nD) (t : Fin cfg0.N) : (iblk0 V c 2 t : Vec Ideal S256x256 .f32) = V c main_arg5 := by
  obtain ⟨-, -, -, -, a0, a1, -, -, -, -⟩ := idxHidden t
  funext y
  show V c main_arg5 (((cfg0.win 2).blk t).view.emb y) = V c main_arg5 y
  refine congrArg (V c main_arg5) (funext fun a => Fin.ext ?_)
  match a with
  | ⟨0, _⟩ => show win0_2.index t (0 : Fin 2) * 256 + 1 * (y 0).val = (y 0).val; rw [a0]; omega
  | ⟨1, _⟩ => show win0_2.index t (1 : Fin 2) * 256 + 1 * (y 1).val = (y 1).val; rw [a1]; omega

/-- The second weight window's block at every point is its whole array. -/
theorem blkHidden3 (c : Dev nD) (t : Fin cfg0.N) : (iblk0 V c 3 t : Vec Ideal S256x256 .f32) = V c main_arg6 := by
  obtain ⟨-, -, -, -, -, -, a0, a1, -, -⟩ := idxHidden t
  funext y
  show V c main_arg6 (((cfg0.win 3).blk t).view.emb y) = V c main_arg6 y
  refine congrArg (V c main_arg6) (funext fun a => Fin.ext ?_)
  match a with
  | ⟨0, _⟩ => show win0_3.index t (0 : Fin 2) * 256 + 1 * (y 0).val = (y 0).val; rw [a0]; omega
  | ⟨1, _⟩ => show win0_3.index t (1 : Fin 2) * 256 + 1 * (y 1).val = (y 1).val; rw [a1]; omega

/-- WHAT POINT `t` WRITES BACK is block `t` of the layer applied to the four arrays as the region finds them: entry `(p, q)` of
    the stored block sits at row `2000 t + p` of the output array, and is that row of the inputs against column `q` of the weights. -/
theorem flushedHidden (c : Dev nD) (t : Fin cfg0.N) :
    (dat0 V c).flushed 4 t = ((cfg0.win 4).blk t).view.read (Elt Ideal)
      (hidden (V c main_v19) (V c main_v18) (V c main_arg5) (V c main_arg6)) := by
  show (cfg0.win 4).cut (grid0.coords t) ((dat0 V c).after 4 t) = _
  rw [after0_4]
  unfold out0_4
  rw [View.canon_unit_zero hz2]
  simp only [View.ld_unit_zero (S := S2000x256) hz2, View.ld_unit_zero (S := S256x256) hz2]
  obtain ⟨-, -, -, -, -, -, -, -, e0, e1⟩ := idxHidden t
  have hN : cfg0.N = 25 := N_0
  have ht : t.val < 25 := hN ▸ t.isLt
  funext j
  have hj0 : (j 0).val < 2000 := (j 0).isLt
  have hj1 : (j 1).val < 256 := (j 1).isLt
  have hr : t.val * 2000 + (j 0).val < 50000 := by omega
  have hemb : ((cfg0.win 4).blk t).view.emb j = ix2 (⟨t.val * 2000 + (j 0).val, hr⟩ : Fin 50000) (j 1) := by
    funext a; apply Fin.ext
    match a with
    | ⟨0, _⟩ => show win0_4.index t (0 : Fin 2) * 2000 + 1 * (j 0).val = t.val * 2000 + (j 0).val; rw [e0]; omega
    | ⟨1, _⟩ => show win0_4.index t (1 : Fin 2) * 256 + 1 * (j 1).val = (j 1).val; rw [e1]; omega
  show k0_pay1 (F := Ideal) (iblk0 V c 0 t) (iblk0 V c 1 t) (iblk0 V c 2 t) (iblk0 V c 3 t) j
    = hidden (V c main_v19) (V c main_v18) (V c main_arg5) (V c main_arg6) (((cfg0.win 4).blk t).view.emb j)
  rw [hemb]
  refine (congrArg (k0_pay1 (F := Ideal) (iblk0 V c 0 t) (iblk0 V c 1 t) (iblk0 V c 2 t) (iblk0 V c 3 t)) (eq_ix2 j)).trans ?_
  exact pointHidden (V c main_v19) (V c main_v18) (V c main_arg5) (V c main_arg6)
    (iblk0 V c 0 t) (iblk0 V c 1 t) (iblk0 V c 2 t) (iblk0 V c 3 t) (j 0) (j 1) ⟨t.val * 2000 + (j 0).val, hr⟩
    (fun k => blkHidden0 V c t (ix2 (j 0) k) (ix2 ⟨t.val * 2000 + (j 0).val, hr⟩ k) rfl rfl)
    (fun k => blkHidden1 V c t (ix2 (j 0) k) (ix2 ⟨t.val * 2000 + (j 0).val, hr⟩ k) rfl rfl)
    (blkHidden2 V c t) (blkHidden3 V c t)

/-- An index of the output array is in point `t`'s block iff each coordinate is in the block's range on its axis. -/
theorem mem_blkHidden (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v20).slice (win0_4.rect t)).set ↔ _
  rw [View.set_slice_whole, Rect.mem_set_unit]
  exact Iff.rfl

/-- Every index of the output array is covered: row `r` lies in the block of point `r / 2000`. -/
theorem coverHidden (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, e0, e1⟩ := idxHidden t
  refine ⟨t, flush0_4 t, ?_⟩
  rw [mem_blkHidden]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 256 ≤ (i 1).val ∧ (i 1).val < win0_4.index t (1 : Fin 2) * 256 + 256; rw [e1]; omega

/-- THE OUTPUT ARRAY AFTER THE REGION is the layer applied to the region's four input arrays as it finds them. -/
theorem finalHidden (c : Dev nD) :
    (dat0 V c).arrAt 4 cfg0.N = hidden (V c main_v19) (V c main_v18) (V c main_arg5) (V c main_arg6) :=
  (dat0 V c).arrAt_eq_of_cover 4 (hidden (V c main_v19) (V c main_v18) (V c main_arg5) (V c main_arg6))
    (fun t _ => flushedHidden V c t) coverHidden

/-! ## Region 1: the output layer, 5 points over 10000 rows -/

/-- The block indices of region 1's five windows at grid point `t`: the two inputs and the output are tiled by rows and move
    with `t`; the two weight matrices are one block each. Decided over the 5 points. -/
theorem idxOutput : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Input window 0's block at point `t` is rows `2000 t … 2000 t + 1999` of its array. -/
theorem blkOutput0 (c : Dev nD) (t : Fin cfg1.N) (y : S2000x256.Idx) (i : S10000x256.Idx)
    (h0 : (i 0).val = t.val * 2000 + (y 0).val) (h1 : (i 1).val = (y 1).val) :
    (iblk1 V c 0 t : Vec Ideal S2000x256 .f32) y = (V c main_v40 : Vec Ideal S10000x256 .f32) i := by
  obtain ⟨a0, a1, -, -, -, -, -, -, -, -⟩ := idxOutput t
  show V c main_v40 (((cfg1.win 0).blk t).view.emb y) = V c main_v40 i
  refine congrArg (V c main_v40) (funext fun a => Fin.ext ?_)
  match a with
  | ⟨0, _⟩ => show win1_0.index t (0 : Fin 2) * 2000 + 1 * (y 0).val = (i 0).val; rw [a0, h0]; omega
  | ⟨1, _⟩ => show win1_0.index t (1 : Fin 2) * 256 + 1 * (y 1).val = (i 1).val; rw [a1, h1]; omega

/-- Input window 1's block at point `t` is the same rows of its own array. -/
theorem blkOutput1 (c : Dev nD) (t : Fin cfg1.N) (y : S2000x256.Idx) (i : S10000x256.Idx)
    (h0 : (i 0).val = t.val * 2000 + (y 0).val) (h1 : (i 1).val = (y 1).val) :
    (iblk1 V c 1 t : Vec Ideal S2000x256 .f32) y = (V c main_v39 : Vec Ideal S10000x256 .f32) i := by
  obtain ⟨-, -, a0, a1, -, -, -, -, -, -⟩ := idxOutput t
  show V c main_v39 (((cfg1.win 1).blk t).view.emb y) = V c main_v39 i
  refine congrArg (V c main_v39) (funext fun a => Fin.ext ?_)
  match a with
  | ⟨0, _⟩ => show win1_1.index t (0 : Fin 2) * 2000 + 1 * (y 0).val = (i 0).val; rw [a0, h0]; omega
  | ⟨1, _⟩ => show win1_1.index t (1 : Fin 2) * 256 + 1 * (y 1).val = (i 1).val; rw [a1, h1]; omega

/-- The first weight window's block at every point is its whole array. -/
theorem blkOutput2 (c : Dev nD) (t : Fin cfg1.N) : (iblk1 V c 2 t : Vec Ideal S256x64 .f32) = V c main_arg7 := by
  obtain ⟨-, -, -, -, a0, a1, -, -, -, -⟩ := idxOutput t
  funext y
  show V c main_arg7 (((cfg1.win 2).blk t).view.emb y) = V c main_arg7 y
  refine congrArg (V c main_arg7) (funext fun a => Fin.ext ?_)
  match a with
  | ⟨0, _⟩ => show win1_2.index t (0 : Fin 2) * 256 + 1 * (y 0).val = (y 0).val; rw [a0]; omega
  | ⟨1, _⟩ => show win1_2.index t (1 : Fin 2) * 64 + 1 * (y 1).val = (y 1).val; rw [a1]; omega

/-- The second weight window's block at every point is its whole array. -/
theorem blkOutput3 (c : Dev nD) (t : Fin cfg1.N) : (iblk1 V c 3 t : Vec Ideal S256x64 .f32) = V c main_arg8 := by
  obtain ⟨-, -, -, -, -, -, a0, a1, -, -⟩ := idxOutput t
  funext y
  show V c main_arg8 (((cfg1.win 3).blk t).view.emb y) = V c main_arg8 y
  refine congrArg (V c main_arg8) (funext fun a => Fin.ext ?_)
  match a with
  | ⟨0, _⟩ => show win1_3.index t (0 : Fin 2) * 256 + 1 * (y 0).val = (y 0).val; rw [a0]; omega
  | ⟨1, _⟩ => show win1_3.index t (1 : Fin 2) * 64 + 1 * (y 1).val = (y 1).val; rw [a1]; omega

/-- WHAT POINT `t` WRITES BACK is block `t` of the layer applied to the four arrays as the region finds them: entry `(p, q)` of
    the stored block sits at row `2000 t + p` of the output array, and is that row of the inputs against column `q` of the weights. -/
theorem flushedOutput (c : Dev nD) (t : Fin cfg1.N) :
    (dat1 V c).flushed 4 t = ((cfg1.win 4).blk t).view.read (Elt Ideal)
      (output (V c main_v40) (V c main_v39) (V c main_arg7) (V c main_arg8)) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S256x64) hz2]
  obtain ⟨-, -, -, -, -, -, -, -, e0, e1⟩ := idxOutput t
  have hN : cfg1.N = 5 := N_1
  have ht : t.val < 5 := hN ▸ t.isLt
  funext j
  have hj0 : (j 0).val < 2000 := (j 0).isLt
  have hj1 : (j 1).val < 64 := (j 1).isLt
  have hr : t.val * 2000 + (j 0).val < 10000 := by omega
  have hemb : ((cfg1.win 4).blk t).view.emb j = ix2 (⟨t.val * 2000 + (j 0).val, hr⟩ : Fin 10000) (j 1) := by
    funext a; apply Fin.ext
    match a with
    | ⟨0, _⟩ => show win1_4.index t (0 : Fin 2) * 2000 + 1 * (j 0).val = t.val * 2000 + (j 0).val; rw [e0]; omega
    | ⟨1, _⟩ => show win1_4.index t (1 : Fin 2) * 64 + 1 * (j 1).val = (j 1).val; rw [e1]; omega
  show k1_pay1 (F := Ideal) (iblk1 V c 0 t) (iblk1 V c 1 t) (iblk1 V c 2 t) (iblk1 V c 3 t) j
    = output (V c main_v40) (V c main_v39) (V c main_arg7) (V c main_arg8) (((cfg1.win 4).blk t).view.emb j)
  rw [hemb]
  refine (congrArg (k1_pay1 (F := Ideal) (iblk1 V c 0 t) (iblk1 V c 1 t) (iblk1 V c 2 t) (iblk1 V c 3 t)) (eq_ix2 j)).trans ?_
  exact pointOutput (V c main_v40) (V c main_v39) (V c main_arg7) (V c main_arg8)
    (iblk1 V c 0 t) (iblk1 V c 1 t) (iblk1 V c 2 t) (iblk1 V c 3 t) (j 0) (j 1) ⟨t.val * 2000 + (j 0).val, hr⟩
    (fun k => blkOutput0 V c t (ix2 (j 0) k) (ix2 ⟨t.val * 2000 + (j 0).val, hr⟩ k) rfl rfl)
    (fun k => blkOutput1 V c t (ix2 (j 0) k) (ix2 ⟨t.val * 2000 + (j 0).val, hr⟩ k) rfl rfl)
    (blkOutput2 V c t) (blkOutput3 V c t)

/-- An index of the output array is in point `t`'s block iff each coordinate is in the block's range on its axis. -/
theorem mem_blkOutput (t : Fin cfg1.N) (i : S10000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v41).slice (win1_4.rect t)).set ↔ _
  rw [View.set_slice_whole, Rect.mem_set_unit]
  exact Iff.rfl

/-- Every index of the output array is covered: row `r` lies in the block of point `r / 2000`. -/
theorem coverOutput (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 5 := N_1
  obtain ⟨t, ht⟩ : ∃ t : Fin cfg1.N, t.val = (i 0).val / 2000 := ⟨⟨(i 0).val / 2000, by rw [hN]; omega⟩, rfl⟩
  obtain ⟨-, -, -, -, -, -, -, -, e0, e1⟩ := idxOutput t
  refine ⟨t, flush1_4 t, ?_⟩
  rw [mem_blkOutput]
  intro a
  match a with
  | ⟨0, _⟩ => show win1_4.index t (0 : Fin 2) * 2000 ≤ (i 0).val ∧ (i 0).val < win1_4.index t (0 : Fin 2) * 2000 + 2000; rw [e0, ht]; omega
  | ⟨1, _⟩ => show win1_4.index t (1 : Fin 2) * 64 ≤ (i 1).val ∧ (i 1).val < win1_4.index t (1 : Fin 2) * 64 + 64; rw [e1]; omega

/-- THE OUTPUT ARRAY AFTER THE REGION is the layer applied to the region's four input arrays as it finds them. -/
theorem finalOutput (c : Dev nD) :
    (dat1 V c).arrAt 4 cfg1.N = output (V c main_v40) (V c main_v39) (V c main_arg7) (V c main_arg8) :=
  (dat1 V c).arrAt_eq_of_cover 4 (output (V c main_v40) (V c main_v39) (V c main_arg7) (V c main_arg8))
    (fun t _ => flushedOutput V c t) coverOutput

end Cert.Sage

end
-- ==== Proof.KernelValue.lean ====
/-
  What the idealized kernel's result array holds: the same function `net` of the nine arguments as the reference's.

  The result buffer ends at the second region's output array after its last write-back, which is the output layer of
  the four arrays that region was entered with. Two of those are weight arguments, untouched since launch; the other two
  were written by the host stretch between the regions from the first region's output array: its first 10000 rows, and
  the neighbour mean of its rows along the second edge list. The first region's output array is in turn the hidden
  layer of the arrays IT was entered with: two weight arguments, the first 50000 feature rows, and the neighbour mean of
  the feature rows along the first edge list, both written by the host stretch before it. The preparations are the very
  operations the reference applies, so they are matched as whole functions and never opened.
-/
import proofs.«175293_j75282186764725_1_alg».proof.Proof.KernelRun
import proofs.«175293_j75282186764725_1_alg».proof.Proof.KernelBlocks
import proofs.«175293_j75282186764725_1_alg».proof.Proof.RefLayer
import Idealize.ShloMosaic.Lib.StableHlo.Run

set_option maxRecDepth 16384

noncomputable section

namespace Cert.Sage

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region: the host stretch from the launch memory -/

theorem entry0_own (c : Dev nD) : V1 m ρ c main_v19 = ownRows0 (m ((c.tc : Thread nD τ).loc main_arg0)) := by
  show StableHlo.after hostOps0 (W0 m ρ c) (Proc.devRef .tc main_v19) = _
  after_results <;> rfl

set_option maxHeartbeats 4000000 in
theorem entry0_nbr (c : Dev nD) :
    V1 m ρ c main_v18 = nbrMean0 (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results_simp <;> rfl

theorem entry0_w (c : Dev nD) : V1 m ρ c main_arg5 = (m ((c.tc : Thread nD τ).loc main_arg5)) := by
  show StableHlo.after hostOps0 (W0 m ρ c) (Proc.devRef .tc main_arg5) = _
  after_results <;> rfl

theorem entry0_w' (c : Dev nD) : V1 m ρ c main_arg6 = (m ((c.tc : Thread nD τ).loc main_arg6)) := by
  show StableHlo.after hostOps0 (W0 m ρ c) (Proc.devRef .tc main_arg6) = _
  after_results <;> rfl

/-- After the first region its output array holds the hidden activations. -/
theorem hidden_array (c : Dev nD) :
    W2 m ρ c (Proc.devRef .tc main_v20)
      = hiddenOf (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  rw [show W2 m ρ c (Proc.devRef .tc main_v20) = (dat0 (V1 m ρ) c).arrAt 4 cfg0.N from W2_arr m ρ c 4,
    finalHidden (V1 m ρ) c, entry0_own, entry0_nbr, entry0_w, entry0_w']
  rfl

/-! ## Between the regions: the arguments the second stretch reads are still as launched -/

theorem mid_arg3 (c : Dev nD) : W2 m ρ c (Proc.devRef .tc main_arg3) = (m ((c.tc : Thread nD τ).loc main_arg3)) := by
  rw [W2_of_ne m ρ c main_arg3 (by decide)]
  show StableHlo.after hostOps0 (W0 m ρ c) (Proc.devRef .tc main_arg3) = _
  after_results <;> rfl

theorem mid_arg4 (c : Dev nD) : W2 m ρ c (Proc.devRef .tc main_arg4) = (m ((c.tc : Thread nD τ).loc main_arg4)) := by
  rw [W2_of_ne m ρ c main_arg4 (by decide)]
  show StableHlo.after hostOps0 (W0 m ρ c) (Proc.devRef .tc main_arg4) = _
  after_results <;> rfl

theorem mid_arg7 (c : Dev nD) : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results <;> rfl

theorem mid_arg8 (c : Dev nD) : W2 m ρ c (Proc.devRef .tc main_arg8) = (m ((c.tc : Thread nD τ).loc main_arg8)) := by
  rw [W2_of_ne m ρ c main_arg8 (by decide)]
  show StableHlo.after hostOps0 (W0 m ρ c) (Proc.devRef .tc main_arg8) = _
  after_results <;> rfl

/-! ## Before the second region: the host stretch from the first region's exit -/

theorem entry1_own (c : Dev nD) : V3 m ρ c main_v40 = ownRows1 (W2 m ρ c (Proc.devRef .tc main_v20)) := by
  show StableHlo.after hostOps1 (W2 m ρ c) (Proc.devRef .tc main_v40) = _
  after_results <;> rfl

set_option maxHeartbeats 4000000 in
theorem entry1_nbr (c : Dev nD) :
    V3 m ρ c main_v39 = nbrMean1 (W2 m ρ c (Proc.devRef .tc main_v20)) (W2 m ρ c (Proc.devRef .tc main_arg3)) (W2 m ρ c (Proc.devRef .tc main_arg4)) := by
  show StableHlo.after hostOps1 (W2 m ρ c) (Proc.devRef .tc main_v39) = _
  after_results_simp <;> rfl

theorem entry1_w (c : Dev nD) : V3 m ρ c main_arg7 = (m ((c.tc : Thread nD τ).loc main_arg7)) := by
  refine Eq.trans ?_ (mid_arg7 m ρ c)
  show StableHlo.after hostOps1 (W2 m ρ c) (Proc.devRef .tc main_arg7) = _
  after_results <;> rfl

theorem entry1_w' (c : Dev nD) : V3 m ρ c main_arg8 = (m ((c.tc : Thread nD τ).loc main_arg8)) := by
  refine Eq.trans ?_ (mid_arg8 m ρ c)
  show StableHlo.after hostOps1 (W2 m ρ c) (Proc.devRef .tc main_arg8) = _
  after_results <;> rfl

/-! ## The result -/

/-- The result buffer's final contents are `net` of the launch contents of the nine arguments. -/
theorem kernel_result (c : Dev nD) :
    W4 m ρ c (Proc.devRef .tc main_v41)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  rw [show W4 m ρ c (Proc.devRef .tc main_v41) = (dat1 (V3 m ρ) c).arrAt 4 cfg1.N from W4_arr m ρ c 4,
    finalOutput (V3 m ρ) c, entry1_own, entry1_nbr, entry1_w, entry1_w', hidden_array, mid_arg3, mid_arg4]
  rfl

/-- The run, read: every weakly fair execution ends with the result array at `net` of the arguments and the
    arguments as launched. -/
theorem kernel_run : θ_run defs (onTc (τ := τ) (main (F := Ideal))) ⟨m, fun _ => 0, ρ⟩ (fun r => ∀ c : Dev nD,
      r.2.mem ((c.tc : Thread nD τ).loc main_v41)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_result m ρ c), (h c).2⟩)
    (Cert.KernelIdeal.Run.run_result m ρ)

end Cert.Sage

end
-- ==== Proof.lean ====
/-
  A two-layer neighbourhood-averaging graph network: the kernel against its plain reference, over the extended reals.

  Each layer maps node features to `X · W + Y · W'`, where `X` holds the destination nodes' own rows and `Y` the mean
  of their neighbours' rows (source rows gathered along an edge list, added onto the destinations, divided by the in-degree
  clamped below at one); the first layer is followed by the maximum with zero. The kernel computes the two matrix products
  and the sum of each layer in a pipelined region, 2000 destination rows per grid point, after rounding its operands to
  bf16; the reference uses two whole `dot_general`s and an addition. Over the extended reals rounding is the identity
  and a product into a zero accumulator is the plain sum over the 256 shared coordinates, so a region's output array is the
  layer applied to the whole input arrays (KernelBody, KernelBlocks), and so is the reference's pair of products (RefLayer).
  Everything around the layers — the gathers, scatter-adds, divisions and slices — is the same sequence of host operations in
  both programs, applied to equal values, and is carried as named functions that are never opened. Both results are therefore
  one function `net` of the nine arguments (KernelValue.kernel_result, RefLayer.ref_result). The only law used is
  re-indexing a finite sum along a bijection of its index type; nothing is distributed or cancelled, so the finiteness
  of the inputs is never needed.

  The three frames: each kernel program's is its generated frame; the reference's is its generated run with the result dropped.
  The idealization rewrote no operation, so the preservation claim is `True`.
-/
import proofs.«175293_j75282186764725_1_alg».proof.Defs
import proofs.«175293_j75282186764725_1_alg».proof.Proof.Gen.Kernel
import proofs.«175293_j75282186764725_1_alg».proof.Proof.Gen.Kernel.Skeleton
import proofs.«175293_j75282186764725_1_alg».proof.Proof.Gen.Kernel.Launch
import proofs.«175293_j75282186764725_1_alg».proof.Proof.Gen.Kernel.Points
import proofs.«175293_j75282186764725_1_alg».proof.Proof.Gen.Kernel.Frame
import proofs.«175293_j75282186764725_1_alg».proof.Proof.Gen.KernelIdeal
import proofs.«175293_j75282186764725_1_alg».proof.Proof.Gen.KernelIdeal.Skeleton
import proofs.«175293_j75282186764725_1_alg».proof.Proof.Gen.KernelIdeal.Launch
import proofs.«175293_j75282186764725_1_alg».proof.Proof.Gen.KernelIdeal.Points
import proofs.«175293_j75282186764725_1_alg».proof.Proof.Gen.KernelIdeal.Frame
import proofs.«175293_j75282186764725_1_alg».proof.Proof.Gen.ReferenceIdeal
import proofs.«175293_j75282186764725_1_alg».proof.Proof.Gen.Pre_finite_inputs
import proofs.«175293_j75282186764725_1_alg».proof.Proof.Gen.ReferenceIdeal.Run
import proofs.«175293_j75282186764725_1_alg».proof.Proof.Gen.ReferenceIdeal.Read
import proofs.«175293_j75282186764725_1_alg».proof.Proof.RefLayer
import proofs.«175293_j75282186764725_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the result array at `net` of the arguments:
    the kernel by reading its two regions' output arrays as the two layers, the reference by reading its host
    products as the same layers. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Sage.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.Sage.ref_result m' c, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
